-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x100000 : Shape := ⟨2, ![64, 100000]⟩
abbrev S100000x3 : Shape := ⟨2, ![100000, 3]⟩
abbrev S1x100000 : Shape := ⟨2, ![1, 100000]⟩
abbrev S_ : Shape := ⟨0, ![]⟩

class Facts : Prop where
  bcast_S_S64x100000 : S_.BroadcastsInDim S64x100000 (![] : Fin 0 → Fin S64x100000.rank)
  reducesTo_S64x100000_S_d0_1 : S64x100000.ReducesTo [0, 1] S_
  h_S_ : 0 < S_.numel

variable [Facts]

def fn {F : FTy → Type} [FloatOps F] (main_arg0 : FVec F S64x100000 .f32) (main_arg1 : IVec S100000x3 32) (main_arg2 : IVec S1x100000 1) : IVec S_ 1 :=
  let main_v0 : FVec F S64x100000 .f32 := Host.absf main_arg0
  let main_cst : FVec F S_ .f32 := constant S_ .f32 0x7F800000#32
  let main_v1 : FVec F S64x100000 .f32 := broadcastInDim S64x100000 ![] bcast_S_S64x100000 main_cst
  let main_v2 : IVec S64x100000 1 := cmpf .olt main_v0 main_v1
  let main_c : IVec S_ 1 := constantI S_ 1 1#1
  let main_v3 : IVec S_ 1 := (fun x v => Host.reduce IntOp.andi x v reducesTo_S64x100000_S_d0_1 h_S_) main_v2 main_c
  main_v3
-- ==== Kernel.lean ====
abbrev S64x100000 : Shape := ⟨2, ![64, 100000]⟩
abbrev S100000x3 : Shape := ⟨2, ![100000, 3]⟩
abbrev S1x100000 : Shape := ⟨2, ![1, 100000]⟩
abbrev S100000x1 : Shape := ⟨2, ![100000, 1]⟩
abbrev S100000 : Shape := ⟨1, ![100000]⟩
abbrev S_ : Shape := ⟨0, ![]⟩
abbrev S1x102400 : Shape := ⟨2, ![1, 102400]⟩
abbrev S1x12800 : Shape := ⟨2, ![1, 12800]⟩
abbrev S64x262144 : Shape := ⟨2, ![64, 262144]⟩
abbrev S1x64x512x512 : Shape := ⟨4, ![1, 64, 512, 512]⟩

abbrev nBuf : Space → Nat
  | .hbm => 34
  | .vmem => 8
  | .smem => 0
  | _ => 0

abbrev bufTy : (tb : Table) → Fin (tcTables nBuf tb) → BufTy
  | .hbm, ⟨0, _⟩ => ⟨S64x100000, .f32⟩
  | .hbm, ⟨1, _⟩ => ⟨S100000x3, .i32⟩
  | .hbm, ⟨2, _⟩ => ⟨S1x100000, .i1⟩
  | .hbm, ⟨3, _⟩ => ⟨S100000x1, .i32⟩
  | .hbm, ⟨4, _⟩ => ⟨S100000, .i32⟩
  | .hbm, ⟨5, _⟩ => ⟨S1x100000, .i32⟩
  | .hbm, ⟨6, _⟩ => ⟨S100000x1, .i32⟩
  | .hbm, ⟨7, _⟩ => ⟨S100000, .i32⟩
  | .hbm, ⟨8, _⟩ => ⟨S1x100000, .i32⟩
  | .hbm, ⟨9, _⟩ => ⟨S1x100000, .i32⟩
  | .hbm, ⟨10, _⟩ => ⟨S_, .i32⟩
  | .hbm, ⟨11, _⟩ => ⟨S_, .i32⟩
  | .hbm, ⟨12, _⟩ => ⟨S1x102400, .i32⟩
  | .hbm, ⟨13, _⟩ => ⟨S_, .i32⟩
  | .hbm, ⟨14, _⟩ => ⟨S_, .i32⟩
  | .hbm, ⟨15, _⟩ => ⟨S1x102400, .i32⟩
  | .hbm, ⟨16, _⟩ => ⟨S_, .i32⟩
  | .hbm, ⟨17, _⟩ => ⟨S_, .i32⟩
  | .hbm, ⟨18, _⟩ => ⟨S1x102400, .i32⟩
  | .hbm, ⟨19, _⟩ => ⟨S1x102400, .i32⟩
  | .hbm, ⟨20, _⟩ => ⟨S1x100000, .i32⟩
  | .hbm, ⟨21, _⟩ => ⟨S100000, .i32⟩
  | .hbm, ⟨22, _⟩ => ⟨S_, .f32⟩
  | .hbm, ⟨23, _⟩ => ⟨S64x262144, .f32⟩
  | .hbm, ⟨24, _⟩ => ⟨S_, .i32⟩
  | .hbm, ⟨25, _⟩ => ⟨S100000, .i32⟩
  | .hbm, ⟨26, _⟩ => ⟨S100000, .i1⟩
  | .hbm, ⟨27, _⟩ => ⟨S_, .i32⟩
  | .hbm, ⟨28, _⟩ => ⟨S100000, .i32⟩
  | .hbm, ⟨29, _⟩ => ⟨S100000, .i32⟩
  | .hbm, ⟨30, _⟩ => ⟨S100000, .i32⟩
  | .hbm, ⟨31, _⟩ => ⟨S100000x1, .i32⟩
  | .hbm, ⟨32, _⟩ => ⟨S64x262144, .f32⟩
  | .hbm, ⟨33, _⟩ => ⟨S1x64x512x512, .f32⟩
  | .local _ .vmem, ⟨0, _⟩ => ⟨S1x12800, .i32⟩
  | .local _ .vmem, ⟨1, _⟩ => ⟨S1x12800, .i32⟩
  | .local _ .vmem, ⟨2, _⟩ => ⟨S1x12800, .i32⟩
  | .local _ .vmem, ⟨3, _⟩ => ⟨S1x12800, .i32⟩
  | .local _ .vmem, ⟨4, _⟩ => ⟨S1x12800, .i32⟩
  | .local _ .vmem, ⟨5, _⟩ => ⟨S1x12800, .i32⟩
  | .local _ .vmem, ⟨6, _⟩ => ⟨S1x12800, .i32⟩
  | .local _ .vmem, ⟨7, _⟩ => ⟨S1x12800, .i32⟩
  | _, _ => ⟨S64x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_c_0 : Ref sig .tc := ⟨.hbm, 13, rfl⟩
abbrev main_call1_v0 : Ref sig .tc := ⟨.hbm, 14, rfl⟩
abbrev main_v8 : Ref sig .tc := ⟨.hbm, 15, rfl⟩
abbrev main_c_1 : Ref sig .tc := ⟨.hbm, 16, rfl⟩
abbrev main_call2_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x12800 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x12800 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x12800 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x12800 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S100000x3_S100000x1_0_1 : S100000x3.Slices ![0, 1] S100000x1
  shapeCasts_S100000x1_S100000 : S100000x1.ShapeCasts S100000
  shapeCasts_S100000_S1x100000 : S100000.ShapeCasts S1x100000
  slices_S100000x3_S100000x1_0_2 : S100000x3.Slices ![0, 2] S100000x1
  natLt_1_32 : 1 < 32
  pads_S1x100000_S1x102400_000_024000 : S1x100000.Pads (![0, 0] : Fin 2 → Nat) ![0, 2400] ![0, 0] S1x102400
  h_S_ : 0 < S_.numel
  inb_S1x12800_S1x12800_0_0 : ∀ a, (![0, 0] : Fin 2 → Nat) a + S1x12800.size a ≤ S1x12800.size a
  h_S1x12800 : 0 < S1x12800.numel
  shapeCasts_S1x12800_S1x12800 : S1x12800.ShapeCasts S1x12800
  slices_S1x102400_S1x100000_0_0 : S1x102400.Slices ![0, 0] S1x100000
  shapeCasts_S1x100000_S100000 : S1x100000.ShapeCasts S100000
  bcast_S_S64x262144 : S_.BroadcastsInDim S64x262144 (![] : Fin 0 → Fin S64x262144.rank)
  bcast_S_S100000 : S_.BroadcastsInDim S100000 (![] : Fin 0 → Fin S100000.rank)
  bcast_S100000_S100000x1_0 : S100000.BroadcastsInDim S100000x1 (![0] : Fin 1 → Fin S100000x1.rank)
  shapeCasts_S64x262144_S1x64x512x512 : S64x262144.ShapeCasts S1x64x512x512
  scatter_S64x262144_S100000x1_S64x100000_0_1_1_1_wf : ScatterDims.WF S64x262144 S100000x1 S64x100000 [0] [1] [1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x12800.size a ≤ S1x102400.size a
  hwx0_0 : ∀ i : grid0.Coords, EltTy.bits .i32 = 32 ∨ (Rect.block (s := S1x102400) S1x12800.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x12800.size a ≤ S1x102400.size a
  hwx0_1 : ∀ i : grid0.Coords, EltTy.bits .i32 = 32 ∨ (Rect.block (s := S1x102400) S1x12800.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x12800.size a ≤ S1x102400.size a
  hwx0_2 : ∀ i : grid0.Coords, EltTy.bits .i32 = 32 ∨ (Rect.block (s := S1x102400) S1x12800.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x12800.size a ≤ S1x102400.size a
  hwx0_3 : ∀ i : grid0.Coords, EltTy.bits .i32 = 32 ∨ (Rect.block (s := S1x102400) S1x12800.size (cc0_transform_3 i) (hinb0_3 i)).WholeWords (EltTy.packing .i32)

variable [Facts₀]

def scatter_S64x262144_S100000x1_S64x100000_0_1_1_1 : ScatterDims S64x262144 S100000x1 S64x100000 where
  updateWindowDims := [0]
  insertedWindowDims := [1]
  scatterDimsToOperandDims := [1]
  indexVectorDim := 1
  wf := scatter_S64x262144_S100000x1_S64x100000_0_1_1_1_wf

abbrev win0_0 : Pipeline.Window sig grid0 :=
  Pipeline.Window.ofSpec (Memref.whole main_v7) S1x12800.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x12800.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x12800.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x12800.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x100000 : Shape := ⟨2, ![64, 100000]⟩
abbrev S100000x3 : Shape := ⟨2, ![100000, 3]⟩
abbrev S1x100000 : Shape := ⟨2, ![1, 100000]⟩
abbrev S100000x1 : Shape := ⟨2, ![100000, 1]⟩
abbrev S100000 : Shape := ⟨1, ![100000]⟩
abbrev S_ : Shape := ⟨0, ![]⟩
abbrev S64x262144 : Shape := ⟨2, ![64, 262144]⟩
abbrev S1x64x512x512 : Shape := ⟨4, ![1, 64, 512, 512]⟩

abbrev nBuf : Space → Nat
  | .hbm => 28
  | .vmem => 0
  | .smem => 0
  | _ => 0

abbrev bufTy : (tb : Table) → Fin (tcTables nBuf tb) → BufTy
  | .hbm, ⟨0, _⟩ => ⟨S64x100000, .f32⟩
  | .hbm, ⟨1, _⟩ => ⟨S100000x3, .i32⟩
  | .hbm, ⟨2, _⟩ => ⟨S1x100000, .i1⟩
  | .hbm, ⟨3, _⟩ => ⟨S100000x1, .i32⟩
  | .hbm, ⟨4, _⟩ => ⟨S100000, .i32⟩
  | .hbm, ⟨5, _⟩ => ⟨S_, .i32⟩
  | .hbm, ⟨6, _⟩ => ⟨S100000, .i32⟩
  | .hbm, ⟨7, _⟩ => ⟨S100000, .i32⟩
  | .hbm, ⟨8, _⟩ => ⟨S100000x1, .i32⟩
  | .hbm, ⟨9, _⟩ => ⟨S100000, .i32⟩
  | .hbm, ⟨10, _⟩ => ⟨S100000, .i32⟩
  | .hbm, ⟨11, _⟩ => ⟨S100000, .i1⟩
  | .hbm, ⟨12, _⟩ => ⟨S_, .i32⟩
  | .hbm, ⟨13, _⟩ => ⟨S_, .i32⟩
  | .hbm, ⟨14, _⟩ => ⟨S100000, .i32⟩
  | .hbm, ⟨15, _⟩ => ⟨S100000, .i32⟩
  | .hbm, ⟨16, _⟩ => ⟨S_, .f32⟩
  | .hbm, ⟨17, _⟩ => ⟨S64x262144, .f32⟩
  | .hbm, ⟨18, _⟩ => ⟨S_, .i32⟩
  | .hbm, ⟨19, _⟩ => ⟨S100000, .i32⟩
  | .hbm, ⟨20, _⟩ => ⟨S100000, .i1⟩
  | .hbm, ⟨21, _⟩ => ⟨S_, .i32⟩
  | .hbm, ⟨22, _⟩ => ⟨S100000, .i32⟩
  | .hbm, ⟨23, _⟩ => ⟨S100000, .i32⟩
  | .hbm, ⟨24, _⟩ => ⟨S100000, .i32⟩
  | .hbm, ⟨25, _⟩ => ⟨S100000x1, .i32⟩
  | .hbm, ⟨26, _⟩ => ⟨S64x262144, .f32⟩
  | .hbm, ⟨27, _⟩ => ⟨S1x64x512x512, .f32⟩
  | _, _ => ⟨S64x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]

class Facts₀ : Prop where
  slices_S100000x3_S100000x1_0_1 : S100000x3.Slices ![0, 1] S100000x1
  shapeCasts_S100000x1_S100000 : S100000x1.ShapeCasts S100000
  bcast_S_S100000 : S_.BroadcastsInDim S100000 (![] : Fin 0 → Fin S100000.rank)
  slices_S100000x3_S100000x1_0_2 : S100000x3.Slices ![0, 2] S100000x1
  shapeCasts_S1x100000_S100000 : S1x100000.ShapeCasts S100000
  bcast_S_S64x262144 : S_.BroadcastsInDim S64x262144 (![] : Fin 0 → Fin S64x262144.rank)
  bcast_S100000_S100000x1_0 : S100000.BroadcastsInDim S100000x1 (![0] : Fin 1 → Fin S100000x1.rank)
  shapeCasts_S64x262144_S1x64x512x512 : S64x262144.ShapeCasts S1x64x512x512
  scatter_S64x262144_S100000x1_S64x100000_0_1_1_1_wf : ScatterDims.WF S64x262144 S100000x1 S64x100000 [0] [1] [1] 1

variable [Facts₀]

def scatter_S64x262144_S100000x1_S64x100000_0_1_1_1 : ScatterDims S64x262144 S100000x1 S64x100000 where
  updateWindowDims := [0]
  insertedWindowDims := [1]
  scatterDimsToOperandDims := [1]
  indexVectorDim := 1
  wf := scatter_S64x262144_S100000x1_S64x100000_0_1_1_1_wf

class Facts : Prop extends Facts₀ where

variable [Facts]
-- ==== Proof.CanvasCell.lean ====
/-
  The canvas cell of one pillar, as a function of three 32-bit words.

  A pillar with grid row `y` and grid column `x` belongs to the flat cell `y · 512 + x` of the 512 × 512 canvas,
  the product and the sum taken in wrapping 32-bit arithmetic; a pillar that is masked out is sent to cell `262144`,
  one past the last cell, so that a scatter which drops out-of-range cells never writes it. The condition "kept"
  is met in two spellings: as one bit `b`, and as the 32-bit word obtained by zero-extending `b` and asking whether
  it differs from zero. The two spellings select alike, because the zero-extension of a bit is nonzero exactly when
  the bit is one.
-/
import Idealize.ShloMosaic.PureOps.Ideal
import Idealize.ShloMosaic.Lib.ValueIdx

noncomputable section

namespace Cert.Pillar

open Idealize.ShloMosaic

/-- The cell of a pillar kept when the bit `keep` is one: `y · 512 + x` (wrapping), else the out-of-range cell. -/
def cell (keep : BitVec 1) (y x : BitVec 32) : BitVec 32 :=
  Scalar.select keep (IntOp.addi (IntOp.muli y 512#32) x) 262144#32

/-- The same with the condition given as a word: kept when the word is not zero. -/
def cellOfWord (keepWord y x : BitVec 32) : BitVec 32 :=
  Scalar.select (IntOp.cmpi .ne keepWord 0#32) (IntOp.addi (IntOp.muli y 512#32) x) 262144#32

/-- A bit, zero-extended to a word, differs from zero exactly when it is one. -/
theorem ne_zero_of_setWidth (b : BitVec 1) : IntOp.cmpi .ne (b.setWidth 32) 0#32 = b := by
  rcases BitVec.eq_zero_or_eq_one b with h | h <;> subst h <;> decide

/-- So the word spelling at a zero-extended bit is the bit spelling. -/
theorem cellOfWord_setWidth (b : BitVec 1) (y x : BitVec 32) : cellOfWord (b.setWidth 32) y x = cell b y x := by
  unfold cellOfWord cell
  rw [ne_zero_of_setWidth]

/-- The cells of a whole array of pillars, the three words read at the same index: the vector form of `cellOfWord`,
    at any shape. -/
def cellsOfWords {s : Shape} (Y X M : IVec s 32) : IVec s 32 :=
  select (cmpi .ne M (broadcast s 0#32)) (addi (muli Y (broadcast s 512#32)) X) (broadcast s 262144#32)

/-- Read at an index it is the scalar function of the three words there. -/
theorem cellsOfWords_apply {s : Shape} (Y X M : IVec s 32) (i : s.Idx) :
    cellsOfWords Y X M i = cellOfWord (M i) (Y i) (X i) := rfl

end Cert.Pillar

end
-- ==== Proof.RegionCells.lean ====
/-
  What the kernel's one region leaves in its output array.

  The region runs over eight grid points. Point `t` is handed block `t` — columns `12800 · t` to `12800 · t + 12799` of
  the single row — of three padded rows of 102400 words (the pillars' grid rows, their grid columns, and their mask
  words) and stores, into block `t` of the output row, the cell of each pillar of the block: at every column the
  function `cellOfWord` of the three words at that column. All four windows move together, one block per point, so
  the block written at point `t` is block `t` of ONE function of the three whole rows, `cellsOfWords`; the eight
  blocks tile the 102400 columns (column `j` lies in block `j / 12800`), hence after the last point the output row
  is `cellsOfWords` of the three padded rows, everywhere.
-/
import proofs.«135974_j88845693485727_2_alg».proof.Proof.Gen.KernelIdeal.Frame
import proofs.«135974_j88845693485727_2_alg».proof.Proof.CanvasCell
import Idealize.ShloMosaic.Lib.Pipeline.Value

noncomputable section

namespace Cert.KernelIdeal.Region

open Cert.KernelIdeal Cert.KernelIdeal.Gen Idealize.ShloMosaic Idealize.ShloMosaic.TcCoe Idealize.SL.Sem
open Idealize.ShloMosaic.Pipeline (Dat)
open Cert.Pillar

variable {F : FTy → Type} [FloatOps F]
variable (m : (ℓ : Loc nD τ sig) → Buf (Elt F) ℓ)

/-- The block offsets of the body's loads and of its store are all zero. -/
theorem zeros : (![0, 0] : Fin 2 → Nat) = fun _ => 0 := funext fun a => by fin_cases a <;> rfl

/-- The cells of a padded row of 102400 pillars, from its three rows of words. -/
abbrev rowCells (rows cols masks : S1x102400.Idx → Elt F .i32) : S1x102400.Idx → Elt F .i32 :=
  cellsOfWords (s := S1x102400) rows cols masks

/-- The value the body stores is the cell of every pillar of the block: the two identity shape casts dropped, the
    remaining operations are `cellsOfWords` at the block's shape. -/
theorem payload_eq (x0 x1 x2 : Vec F S1x12800 .i32) : k0_pay1 x0 x1 x2 = cellsOfWords (s := S1x12800) x0 x1 x2 := by
  unfold k0_pay1
  simp only [shapeCast_self]
  rfl

/-- The four windows are at the same block at every point: block `(0, t)` with `t ≤ 7`. -/
theorem same_block : ∀ t : Fin cfg0.N, win0_0.index t (0 : Fin 2) = win0_3.index t (0 : Fin 2)
    ∧ win0_0.index t (1 : Fin 2) = win0_3.index t (1 : Fin 2)
    ∧ win0_1.index t (0 : Fin 2) = win0_3.index t (0 : Fin 2)
    ∧ win0_1.index t (1 : Fin 2) = win0_3.index t (1 : Fin 2)
    ∧ win0_2.index t (0 : Fin 2) = win0_3.index t (0 : Fin 2)
    ∧ win0_2.index t (1 : Fin 2) = win0_3.index t (1 : Fin 2)
    ∧ win0_3.index t (0 : Fin 2) = 0 ∧ win0_3.index t (1 : Fin 2) ≤ 7 :=
  (by decide +kernel : ∀ t : Fin grid0.N, _)

/-- Each of the eight blocks of the output row is some point's. -/
theorem every_block : ∀ q : Fin 8, ∃ t : Fin cfg0.N, win0_3.index t = ![0, q.val] :=
  (by decide +kernel : ∀ q : Fin 8, ∃ t : Fin grid0.N, win0_3.index t = ![0, q.val])

set_option maxHeartbeats 1000000 in
/-- What point `t` writes back is block `t` of the cells of the three padded rows as the region finds them. The three
    rows enter only as arrays read at an index, so they are carried as variables; the body's three loads at local
    column `j` and the output block's column `j` are the same column of the whole row, the windows being at the same
    block. -/
theorem flushed_eq (c : Dev nD) (t : Fin cfg0.N) :
    (dats m 0 c).flushed 3 t
      = ((cfg0.win 3).blk t).view.read (Elt F)
          (rowCells (V m c (Pipeline.arrRef spec0 0)) (V m c (Pipeline.arrRef spec0 1)) (V m c (Pipeline.arrRef spec0 2))) := by
  show (cfg0.win 3).cut (grid0.coords t) ((dats m 0 c).after 3 t) = _
  rw [after0_3]
  unfold out0_3
  rw [View.canon_unit_zero zeros]
  simp only [View.ld_unit_zero (S := S1x12800) zeros]
  rw [payload_eq]
  unfold iblk
  generalize V m c (Pipeline.arrRef spec0 0) = A0
  generalize V m c (Pipeline.arrRef spec0 1) = A1
  generalize V m c (Pipeline.arrRef spec0 2) = A2
  obtain ⟨e0, e1, e2, e3, e4, e5, e6, e7⟩ := same_block t
  funext j
  show cellOfWord (A2 (((cfg0.win 2).blk t).view.emb j)) (A0 (((cfg0.win 0).blk t).view.emb j))
      (A1 (((cfg0.win 1).blk t).view.emb j))
    = cellOfWord (A2 (((cfg0.win 3).blk t).view.emb j)) (A0 (((cfg0.win 3).blk t).view.emb j))
      (A1 (((cfg0.win 3).blk t).view.emb j))
  have h0 : ((cfg0.win 0).blk t).view.emb j = ((cfg0.win 3).blk t).view.emb j := by
    funext a; apply Fin.ext
    match a with
    | ⟨0, _⟩ => show win0_0.index t (0 : Fin 2) * 1 + 1 * (j 0).val = win0_3.index t (0 : Fin 2) * 1 + 1 * (j 0).val; omega
    | ⟨1, _⟩ => show win0_0.index t (1 : Fin 2) * 12800 + 1 * (j 1).val = win0_3.index t (1 : Fin 2) * 12800 + 1 * (j 1).val; omega
  have h1 : ((cfg0.win 1).blk t).view.emb j = ((cfg0.win 3).blk t).view.emb j := by
    funext a; apply Fin.ext
    match a with
    | ⟨0, _⟩ => show win0_1.index t (0 : Fin 2) * 1 + 1 * (j 0).val = win0_3.index t (0 : Fin 2) * 1 + 1 * (j 0).val; omega
    | ⟨1, _⟩ => show win0_1.index t (1 : Fin 2) * 12800 + 1 * (j 1).val = win0_3.index t (1 : Fin 2) * 12800 + 1 * (j 1).val; omega
  have h2 : ((cfg0.win 2).blk t).view.emb j = ((cfg0.win 3).blk t).view.emb j := by
    funext a; apply Fin.ext
    match a with
    | ⟨0, _⟩ => show win0_2.index t (0 : Fin 2) * 1 + 1 * (j 0).val = win0_3.index t (0 : Fin 2) * 1 + 1 * (j 0).val; omega
    | ⟨1, _⟩ => show win0_2.index t (1 : Fin 2) * 12800 + 1 * (j 1).val = win0_3.index t (1 : Fin 2) * 12800 + 1 * (j 1).val; omega
  rw [h0, h1, h2]

/-- A column of the output row is in point `t`'s block iff it lies in the block's range on each axis. -/
theorem mem_block (t : Fin cfg0.N) (i : S1x102400.Idx) :
    i ∈ ((cfg0.win 3).blk t).view.set ↔ ∀ a : Fin 2, win0_3.index t a * S1x12800.size a ≤ (i a).val
      ∧ (i a).val < win0_3.index t a * S1x12800.size a + S1x12800.size a := by
  show i ∈ ((View.whole main_v10).slice (win0_3.rect t)).set ↔ _
  rw [View.set_slice_whole, Rect.mem_set_unit]
  exact Iff.rfl

/-- Every column is in the block of the point whose block number is the column divided by 12800. -/
theorem covered (i : S1x102400.Idx) :
    ∃ t : Fin cfg0.N, (cfg0.win 3).flush t = true ∧ i ∈ ((cfg0.win 3).blk t).view.set := by
  have hi0 : (i 0).val < 1 := (i 0).isLt
  have hi1 : (i 1).val < 102400 := (i 1).isLt
  obtain ⟨t, ht⟩ := every_block ⟨(i 1).val / 12800, by omega⟩
  have q0 : win0_3.index t (0 : Fin 2) = 0 := congrFun ht 0
  have q1 : win0_3.index t (1 : Fin 2) = (i 1).val / 12800 := congrFun ht 1
  refine ⟨t, flush0_3 t, ?_⟩
  rw [mem_block]
  intro a
  match a with
  | ⟨0, _⟩ => show win0_3.index t (0 : Fin 2) * 1 ≤ (i 0).val ∧ (i 0).val < win0_3.index t (0 : Fin 2) * 1 + 1; omega
  | ⟨1, _⟩ => show win0_3.index t (1 : Fin 2) * 12800 ≤ (i 1).val ∧ (i 1).val < win0_3.index t (1 : Fin 2) * 12800 + 12800; omega

/-- The output row after the last point: the cells of the three padded rows as the region finds them. -/
theorem row_after (c : Dev nD) :
    (dats m 0 c).arrAt 3 cfg0.N
      = rowCells (V m c (Pipeline.arrRef spec0 0)) (V m c (Pipeline.arrRef spec0 1)) (V m c (Pipeline.arrRef spec0 2)) :=
  (dats m 0 c).arrAt_eq_of_cover 3 _ (fun t _ => flushed_eq m c t) covered

end Cert.KernelIdeal.Region

end
-- ==== Proof.HostSides.lean ====
/-
  The host operations around the kernel's region.

  BEFORE the region the program cuts column 1 (the grid rows) and column 2 (the grid columns) out of the 100000 × 3
  coordinate table, lays each out as one row of 100000 words and pads it on the right with 2400 zero words; the mask
  bits are zero-extended to words and padded the same way. These three rows of 102400 words are what the region's
  three input windows read.

  AFTER the region the program keeps the first 100000 words of the output row (`firstPillars`: the padding is cut
  off again), and hands them, with the feature table, to the operations named `canvas` here: a negative cell is moved
  up by 262144, the cells become the one-column index table of a scatter of the feature columns into a zero
  64 × 262144 array, and that array is laid out as 1 × 64 × 512 × 512. `canvas` is never opened: the reference ends in
  the same operations, so only its two operands matter.
-/
import proofs.«135974_j88845693485727_2_alg».proof.Proof.Gen.KernelIdeal.Frame
import Idealize.ShloMosaic.Lib.StableHlo.Run
import Idealize.ShloMosaic.Lib.Pipeline.Value

noncomputable section

namespace Cert.KernelIdeal.Host

open Cert.KernelIdeal Cert.KernelIdeal.Gen Idealize.ShloMosaic Idealize.ShloMosaic.TcCoe Idealize.SL.Sem
open Idealize.ShloMosaic.StableHlo
open Idealize.ShloMosaic.Pipeline (Dat)

variable {F : FTy → Type} [FloatOps F]
variable (m : (ℓ : Loc nD τ sig) → Buf (Elt F) ℓ)

/-- Column 1 of the coordinate table (the pillars' grid rows) as a row of 100000 words followed by 2400 zeros. -/
def paddedGridRows (coords : (⟨S100000x3, .i32⟩ : BufTy).Contents (Elt F)) : (⟨S1x102400, .i32⟩ : BufTy).Contents (Elt F) :=
  pad S1x102400 ![0, 0] ![0, 2400] ![0, 0]
    (shapeCast _ (shapeCast _ (extractStridedSlice S100000x1 ![0, 1] coords slices_S100000x3_S100000x1_0_1)
      shapeCasts_S100000x1_S100000) shapeCasts_S100000_S1x100000)
    (id (constantI S_ 32 0#32)) pads_S1x100000_S1x102400_000_024000 h_S_

/-- Column 2 of the coordinate table (the pillars' grid columns), padded the same way. -/
def paddedGridCols (coords : (⟨S100000x3, .i32⟩ : BufTy).Contents (Elt F)) : (⟨S1x102400, .i32⟩ : BufTy).Contents (Elt F) :=
  pad S1x102400 ![0, 0] ![0, 2400] ![0, 0]
    (shapeCast _ (shapeCast _ (extractStridedSlice S100000x1 ![0, 2] coords slices_S100000x3_S100000x1_0_2)
      shapeCasts_S100000x1_S100000) shapeCasts_S100000_S1x100000)
    (id (constantI S_ 32 0#32)) pads_S1x100000_S1x102400_000_024000 h_S_

/-- The mask bits zero-extended to words, padded the same way. -/
def paddedMaskWords (mask : (⟨S1x100000, .i1⟩ : BufTy).Contents (Elt F)) : (⟨S1x102400, .i32⟩ : BufTy).Contents (Elt F) :=
  pad S1x102400 ![0, 0] ![0, 2400] ![0, 0] (extui 32 mask natLt_1_32)
    (id (constantI S_ 32 0#32)) pads_S1x100000_S1x102400_000_024000 h_S_

/-- The first 100000 words of a row of 102400, as a vector. -/
def firstPillars (row : (⟨S1x102400, .i32⟩ : BufTy).Contents (Elt F)) : (⟨S100000, .i32⟩ : BufTy).Contents (Elt F) :=
  shapeCast _ (extractStridedSlice S1x100000 ![0, 0] row slices_S1x102400_S1x100000_0_0) shapeCasts_S1x100000_S100000

/-- From the pillars' cells and the feature table to the result: negative cells moved up by 262144, the feature
    columns scattered into a zero array at the cells, the array laid out as the canvas. -/
def canvas (cells : (⟨S100000, .i32⟩ : BufTy).Contents (Elt F)) (features : (⟨S64x100000, .f32⟩ : BufTy).Contents (Elt F)) :
    (⟨S1x64x512x512, .f32⟩ : BufTy).Contents (Elt F) :=
  shapeCast _ (Host.scatter scatter_S64x262144_S100000x1_S64x100000_0_1_1_1 (fun _ b => b)
    (broadcastInDim S64x262144 ![] bcast_S_S64x262144 (constant S_ .f32 0x00000000#32))
    (broadcastInDim S100000x1 ![0] bcast_S100000_S100000x1_0
      (select (cmpi .slt cells (broadcastInDim S100000 ![] bcast_S_S100000 (constantI S_ 32 0#32)))
        (addi cells (broadcastInDim S100000 ![] bcast_S_S100000 (constantI S_ 32 262144#32))) cells))
    features) shapeCasts_S64x262144_S1x64x512x512

/-- The first input window's array as the region finds it: the padded grid rows of the launch coordinates. -/
theorem gridRows_before (c : Dev nD) :
    V m c (Pipeline.arrRef spec0 0) = paddedGridRows (m ((c : Thread nD τ).loc main_arg1)) := by
  show V m c main_v7 = _
  dsimp only [V, V0]
  simp only [hostOps0, hostOps0_1, hostOps0_2, hostOps0_3, hostOps0_4, hostOps0_5, List.flatten_cons, List.flatten_nil,
    List.append_nil, List.cons_append, List.nil_append]
  after_results
  rfl

/-- The second input window's array: the padded grid columns. -/
theorem gridCols_before (c : Dev nD) :
    V m c (Pipeline.arrRef spec0 1) = paddedGridCols (m ((c : Thread nD τ).loc main_arg1)) := by
  show V m c main_v8 = _
  dsimp only [V, V0]
  simp only [hostOps0, hostOps0_1, hostOps0_2, hostOps0_3, hostOps0_4, hostOps0_5, List.flatten_cons, List.flatten_nil,
    List.append_nil, List.cons_append, List.nil_append]
  after_results
  rfl

/-- The third input window's array: the padded mask words. -/
theorem maskWords_before (c : Dev nD) :
    V m c (Pipeline.arrRef spec0 2) = paddedMaskWords (m ((c : Thread nD τ).loc main_arg2)) := by
  show V m c main_v9 = _
  dsimp only [V, V0]
  simp only [hostOps0, hostOps0_1, hostOps0_2, hostOps0_3, hostOps0_4, hostOps0_5, List.flatten_cons, List.flatten_nil,
    List.append_nil, List.cons_append, List.nil_append]
  after_results
  rfl

/-- The operations after the region, run from ANY contents `W` of the buffers, leave the result at `canvas` of the
    first 100000 words of the output row's buffer and of the feature table's buffer as `W` has them. -/
theorem tail_from (W : Valuation τ sig (Elt F)) :
    StableHlo.after ([hostOps1] : List (List (HloOp τ sig (Elt F)))).flatten W (Proc.devRef .tc main_v21)
      = canvas (firstPillars (W (Proc.devRef .tc main_v10))) (W (Proc.devRef .tc main_arg0)) := by
  show StableHlo.after hostOps1 W (Proc.devRef .tc main_v21) = _
  after_results
  rfl

/-- At the region's exit the output row's buffer holds what the eight write-backs left. -/
theorem row_at_exit (c : Dev nD) :
    Pipeline.withArrays (cfgs 0).spec c (V0 m c) (fun w => (dats m 0 c).arrAt w (cfgs 0).N) (Proc.devRef .tc main_v10)
      = (dats m 0 c).arrAt 3 cfg0.N :=
  Pipeline.withArrays_arr spec0 launch0.win.arr_inj c (V0 m c) _ 3

/-- The feature table is no window's array and no operation before the region writes it: it is as launched. -/
theorem features_at_exit (c : Dev nD) :
    Pipeline.withArrays (cfgs 0).spec c (V0 m c) (fun w => (dats m 0 c).arrAt w (cfgs 0).N) (Proc.devRef .tc main_arg0)
      = m ((c : Thread nD τ).loc main_arg0) :=
  (Pipeline.withArrays_of_ne spec0 c (V0 m c) _ main_arg0 (by decide)).trans (V_main_arg0 m c)

/-- The program's result after the operations that follow the region: `canvas` of the first 100000 words of the
    region's output row and of the launch feature table. -/
theorem result_after (c : Dev nD) :
    Pipeline.afterTail₀ cfgs (dats m) 0 (V0 m) [hostOps1] c main_v21
      = canvas (firstPillars ((dats m 0 c).arrAt 3 cfg0.N)) (m ((c : Thread nD τ).loc main_arg0)) :=
  (tail_from _).trans (congr (congrArg canvas (congrArg firstPillars (row_at_exit m c))) (features_at_exit m c))

end Cert.KernelIdeal.Host

end
-- ==== Proof.KernelCanvas.lean ====
/-
  The kernel program's run, with its result named.

  Every weakly fair execution of the kernel program terminates without fault; its result is `canvas` of the first
  100000 cells of the region's output row and of the feature table, that row being the cells of the three padded
  rows computed from the launch coordinates and mask; and the three arguments end as launched. This joins the three
  parts: the rows the region finds (host operations before it), the row it leaves (the eight grid points), and the
  result the operations after it compute from that row.
-/
import proofs.«135974_j88845693485727_2_alg».proof.Proof.RegionCells
import proofs.«135974_j88845693485727_2_alg».proof.Proof.HostSides

noncomputable section

namespace Cert.KernelIdeal.Canvas

open Cert.KernelIdeal Cert.KernelIdeal.Gen Idealize.ShloMosaic Idealize.ShloMosaic.TcCoe Idealize.SL.Sem
open Cert.KernelIdeal.Region Cert.KernelIdeal.Host

variable {F : FTy → Type} [FloatOps F]
variable (m : (ℓ : Loc nD τ sig) → Buf (Elt F) ℓ) (ρ : Dev nD → PrngReg)

/-- The pillars' cells as the kernel program computes them from the launch coordinates and mask. -/
abbrev kernelCells (coords : (⟨S100000x3, .i32⟩ : BufTy).Contents (Elt F)) (mask : (⟨S1x100000, .i1⟩ : BufTy).Contents (Elt F)) :
    (⟨S100000, .i32⟩ : BufTy).Contents (Elt F) :=
  firstPillars (rowCells (paddedGridRows coords) (paddedGridCols coords) (paddedMaskWords mask))

/-- The region's output row after the last point, from the launch memory. -/
theorem row_value (c : Dev nD) :
    (dats m 0 c).arrAt 3 cfg0.N
      = rowCells (paddedGridRows (m ((c : Thread nD τ).loc main_arg1))) (paddedGridCols (m ((c : Thread nD τ).loc main_arg1)))
          (paddedMaskWords (m ((c : Thread nD τ).loc main_arg2))) :=
  (row_after m c).trans
    (congr (congr (congrArg (rowCells (F := F)) (gridRows_before m c)) (gridCols_before m c)) (maskWords_before m c))

/-- The run: the result at `canvas` of the kernel's cells and the launch features, the arguments unchanged. -/
theorem run : θ_run defs (onTc (τ := τ) (main (F := F))) ⟨m, fun _ => 0, ρ⟩ fun r => ∀ c : Dev nD,
      r.2.mem ((c.tc : Thread nD τ).loc main_v21)
        = canvas (kernelCells (m ((c.tc : Thread nD τ).loc main_arg1)) (m ((c.tc : Thread nD τ).loc main_arg2)))
            (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v21 (Pipeline.mem_restRefs_of main_v21 (by decide) (by decide))).trans
        ((result_after m c).trans (congrArg (fun row => canvas (firstPillars row) (m ((c.tc : Thread nD τ).loc main_arg0))) (row_value m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Canvas

end
-- ==== Proof.CellsAgree.lean ====
/-
  The kernel's cells and the reference's cells are the same vector.

  For pillar `p` (of 100000) both programs compute `cell (mask p) (coords p 1) (coords p 2)`:

  * the kernel's side reads word `p` of the region's output row, which is `cellOfWord` of word `p` of the three padded
    rows; `p` is below 100000, so each padded row is read inside its unpadded part — the padding is never seen — and
    gives `coords p 1`, `coords p 2` and the zero-extension of `mask p`; the zero-extended bit differs from zero
    exactly when the bit is one (`cellOfWord_setWidth`);
  * the reference's side multiplies column 1 by 512, adds column 2 and selects by the mask bit against 262144, each
    operation read at pillar `p`.
-/
import proofs.«135974_j88845693485727_2_alg».proof.Proof.Gen.ReferenceIdeal.Read
import proofs.«135974_j88845693485727_2_alg».proof.Proof.CanvasCell
import proofs.«135974_j88845693485727_2_alg».proof.Proof.RegionCells
import proofs.«135974_j88845693485727_2_alg».proof.Proof.HostSides
import Idealize.ShloMosaic.Lib.KernelVsHost

noncomputable section

namespace Cert.Pillar

open Idealize.ShloMosaic Idealize.ShloMosaic.ValueIdx
open Cert.KernelIdeal Cert.KernelIdeal.Gen Cert.KernelIdeal.Host Cert.KernelIdeal.Region

variable {F : FTy → Type} [FloatOps F]

/-- Pillar `p` as a column of a padded row. -/
abbrev col (p : Fin 100000) : Fin 102400 := ⟨p.val, by have := p.isLt; omega⟩

/-- Word `p` of the first 100000 words of a row is word `p` of the row. -/
theorem firstPillars_apply (row : (⟨S1x102400, .i32⟩ : BufTy).Contents (Elt F)) (p : Fin 100000) :
    firstPillars (F := F) row (ix1 p) = row (ix2 (0 : Fin 1) (col p)) := by
  unfold firstPillars
  refine (shapeCast_apply _ shapeCasts_S1x100000_S100000 (ix1 p) (ix2 (0 : Fin 1) p)
    (by rewrite [Shape.rowMajor_val_two, Shape.rowMajor_val_one]; show 0 * 100000 + p.val = p.val; omega)).trans ?_
  exact extractStridedSlice_apply ![0, 0] row slices_S1x102400_S1x100000_0_0 (ix2 (0 : Fin 1) p) (ix2 (0 : Fin 1) (col p))
    (fun a => match a with
      | ⟨0, _⟩ => by show (0 : Nat) = 0 + 0; rfl
      | ⟨1, _⟩ => by show p.val = 0 + p.val; omega)

/-- A row of 100000 words padded on the right, read at a column below 100000, is the row there. -/
theorem padded_apply (x : (⟨S1x100000, .i32⟩ : BufTy).Contents (Elt F)) (v : (⟨S_, .i32⟩ : BufTy).Contents (Elt F)) (p : Fin 100000) :
    pad S1x102400 ![0, 0] ![0, 2400] ![0, 0] x v pads_S1x100000_S1x102400_000_024000 h_S_ (ix2 (0 : Fin 1) (col p))
      = x (ix2 (0 : Fin 1) p) :=
  pad_apply_of_inside ![0, 0] ![0, 2400] ![0, 0] x v pads_S1x100000_S1x102400_000_024000 h_S_ (ix2 (0 : Fin 1) (col p))
    (ix2 (0 : Fin 1) p) (fun a => match a with
      | ⟨0, _⟩ => by show (0 : Nat) = 0 + 0 * (0 + 1); rfl
      | ⟨1, _⟩ => by show p.val = 0 + p.val * (0 + 1); omega)

/-- Column `k` of the coordinate table laid out as a row, read at pillar `p`, is the table's entry `(p, k)`. -/
theorem column_row_apply (coords : (⟨S100000x3, .i32⟩ : BufTy).Contents (Elt F)) (k : Fin 3) (off : Fin 2 → Nat)
    (hoff : off = ![0, k.val]) (h : S100000x3.Slices off S100000x1) (p : Fin 100000) :
    shapeCast S1x100000 (shapeCast S100000 (extractStridedSlice S100000x1 off coords h) shapeCasts_S100000x1_S100000)
        shapeCasts_S100000_S1x100000 (ix2 (0 : Fin 1) p)
      = coords (ix2 p k) := by
  subst hoff
  refine (shapeCast_apply _ shapeCasts_S100000_S1x100000 (ix2 (0 : Fin 1) p) (ix1 p)
    (by rewrite [Shape.rowMajor_val_two, Shape.rowMajor_val_one]; show p.val = 0 * 100000 + p.val; omega)).trans ?_
  refine (shapeCast_apply _ shapeCasts_S100000x1_S100000 (ix1 p) (ix2 p (0 : Fin 1))
    (by rewrite [Shape.rowMajor_val_two, Shape.rowMajor_val_one]; show p.val * 1 + 0 = p.val; omega)).trans ?_
  exact extractStridedSlice_apply ![0, k.val] coords h (ix2 p (0 : Fin 1)) (ix2 p k)
    (fun a => match a with
      | ⟨0, _⟩ => by show p.val = 0 + p.val; omega
      | ⟨1, _⟩ => by show k.val = k.val + 0; omega)

/-- The kernel's cell of pillar `p`. -/
theorem kernel_cell (coords : (⟨S100000x3, .i32⟩ : BufTy).Contents (Elt F)) (mask : (⟨S1x100000, .i1⟩ : BufTy).Contents (Elt F))
    (p : Fin 100000) :
    firstPillars (F := F) (rowCells (paddedGridRows coords) (paddedGridCols coords) (paddedMaskWords mask)) (ix1 p)
      = cell (mask (ix2 (0 : Fin 1) p)) (coords (ix2 p (1 : Fin 3))) (coords (ix2 p (2 : Fin 3))) := by
  refine (firstPillars_apply _ p).trans ?_
  refine (cellsOfWords_apply _ _ _ _).trans ?_
  have hr : paddedGridRows (F := F) coords (ix2 (0 : Fin 1) (col p)) = coords (ix2 p (1 : Fin 3)) := by
    unfold paddedGridRows
    exact (padded_apply _ _ p).trans (column_row_apply coords 1 _ rfl _ p)
  have hc : paddedGridCols (F := F) coords (ix2 (0 : Fin 1) (col p)) = coords (ix2 p (2 : Fin 3)) := by
    unfold paddedGridCols
    exact (padded_apply _ _ p).trans (column_row_apply coords 2 _ rfl _ p)
  have hm : paddedMaskWords (F := F) mask (ix2 (0 : Fin 1) (col p)) = (mask (ix2 (0 : Fin 1) p)).setWidth 32 := by
    unfold paddedMaskWords
    exact padded_apply _ _ p
  rw [hr, hc, hm]
  exact cellOfWord_setWidth _ _ _

open Cert.ReferenceIdeal.Read in
/-- The reference's cell of pillar `p`. -/
theorem reference_cell (coords : (⟨S100000x3, .i32⟩ : BufTy).Contents (Elt F)) (mask : (⟨S1x100000, .i1⟩ : BufTy).Contents (Elt F))
    (p : Fin 100000) :
    Cert.ReferenceIdeal.Read.val_main_v8 (F := F) coords mask (ix1 p)
      = cell (mask (ix2 (0 : Fin 1) p)) (coords (ix2 p (1 : Fin 3))) (coords (ix2 p (2 : Fin 3))) := by
  have e7 : idx_main_v7 (ix1 p) = ix2 (0 : Fin 1) p := by
    funext a; apply Fin.ext
    match a with
    | ⟨0, _⟩ => rfl
    | ⟨1, _⟩ => show p.val % 100000 = p.val; have := p.isLt; omega
  have e1 : idx_main_v0 (idx_main_v1 (ix1 p)) = ix2 p (1 : Fin 3) := by
    funext a; apply Fin.ext
    match a with
    | ⟨0, _⟩ => show p.val / 1 = p.val; omega
    | ⟨1, _⟩ => rfl
  have e2 : idx_main_v4 (idx_main_v5 (ix1 p)) = ix2 p (2 : Fin 3) := by
    funext a; apply Fin.ext
    match a with
    | ⟨0, _⟩ => show p.val / 1 = p.val; omega
    | ⟨1, _⟩ => rfl
  rw [val_main_v8_apply, val_main_v7_apply, val_main_v6_apply, val_main_v3_apply, val_main_v1_apply, val_main_v0_apply,
    val_main_v2_apply, val_main_c_apply, val_main_v5_apply, val_main_v4_apply, val_main_call0_v1_apply,
    val_main_call0_v0_apply, val_main_c_0_apply, e7, e1, e2]
  rfl

/-- The two vectors of cells are equal. -/
theorem cells_agree (coords : (⟨S100000x3, .i32⟩ : BufTy).Contents (Elt F)) (mask : (⟨S1x100000, .i1⟩ : BufTy).Contents (Elt F)) :
    firstPillars (F := F) (rowCells (paddedGridRows coords) (paddedGridCols coords) (paddedMaskWords mask))
      = Cert.ReferenceIdeal.Read.val_main_v8 (F := F) coords mask := by
  funext j
  obtain ⟨p, rfl⟩ : ∃ p : Fin 100000, j = ix1 p := ⟨j 0, eq_ix1 j⟩
  exact (kernel_cell coords mask p).trans (reference_cell coords mask p).symm

/-- The reference ends in the same operations as the kernel program: its result is `canvas` of ITS cells and the
    feature table (the two programs' spellings of those operations differ only in the names of their shapes). -/
theorem reference_canvas (features : (⟨S64x100000, .f32⟩ : BufTy).Contents (Elt F))
    (coords : (⟨S100000x3, .i32⟩ : BufTy).Contents (Elt F)) (mask : (⟨S1x100000, .i1⟩ : BufTy).Contents (Elt F)) :
    Cert.ReferenceIdeal.Read.val_main_v17 (F := F) features coords mask
      = canvas (Cert.ReferenceIdeal.Read.val_main_v8 (F := F) coords mask) features := rfl

/-- So the reference's result is `canvas` of the kernel's cells. -/
theorem reference_result (features : (⟨S64x100000, .f32⟩ : BufTy).Contents (Elt F))
    (coords : (⟨S100000x3, .i32⟩ : BufTy).Contents (Elt F)) (mask : (⟨S1x100000, .i1⟩ : BufTy).Contents (Elt F)) :
    Cert.ReferenceIdeal.Read.val_main_v17 (F := F) features coords mask
      = canvas (firstPillars (F := F) (rowCells (paddedGridRows coords) (paddedGridCols coords) (paddedMaskWords mask))) features :=
  (reference_canvas features coords mask).trans
    (congrArg (fun cells => canvas cells features) (cells_agree coords mask).symm)

end Cert.Pillar

end
-- ==== Proof.lean ====
/-
  Scattering pillar features onto a 512 × 512 canvas: the kernel program against its reference, over the extended reals.

  Both programs send pillar `p` (of 100000), with grid row `y` and grid column `x` read from the coordinate table, to the
  flat cell `y · 512 + x` (wrapping 32-bit arithmetic) when its mask bit is set and to the out-of-range cell 262144
  otherwise, and then scatter the 64 feature values of every pillar into a zero 64 × 262144 array at its cell (cells
  out of range are dropped), which is returned as 1 × 64 × 512 × 512. They differ only in WHERE the cells are computed:
  the reference on whole vectors; the kernel program in a region of eight grid points over rows padded from 100000 to
  102400 words, the mask carried as words and tested against zero, the padding cut off again afterwards.

  The proof shows the two vectors of cells equal, pillar by pillar (Proof/CellsAgree.lean) — the kernel's read off
  its region (Proof/RegionCells.lean) and the host operations around it (Proof/HostSides.lean, Proof/KernelCanvas.lean)
  — and then never opens the scatter: both programs apply the same closing operations to equal cells and the same
  feature table. No arithmetic on the feature values takes place, so the finiteness of the inputs is not used. The
  three frames are the generated ones (the reference's is its generated run with the result dropped), and the
  idealization rewrote nothing, so `preserves` is trivial.
-/
import proofs.«135974_j88845693485727_2_alg».proof.Defs
import proofs.«135974_j88845693485727_2_alg».proof.Proof.Gen.Kernel
import proofs.«135974_j88845693485727_2_alg».proof.Proof.Gen.Kernel.Frame
import proofs.«135974_j88845693485727_2_alg».proof.Proof.Gen.KernelIdeal
import proofs.«135974_j88845693485727_2_alg».proof.Proof.Gen.KernelIdeal.Frame
import proofs.«135974_j88845693485727_2_alg».proof.Proof.Gen.ReferenceIdeal
import proofs.«135974_j88845693485727_2_alg».proof.Proof.Gen.ReferenceIdeal.Run
import proofs.«135974_j88845693485727_2_alg».proof.Proof.Gen.ReferenceIdeal.Read
import proofs.«135974_j88845693485727_2_alg».proof.Proof.Gen.Pre_finite_inputs
import proofs.«135974_j88845693485727_2_alg».proof.Proof.KernelCanvas
import proofs.«135974_j88845693485727_2_alg».proof.Proof.CellsAgree

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the three arguments both programs end with the same canvas: `canvas` of the kernel's
    cells and the feature table — the kernel program by its run, the reference because its cells are the kernel's. -/
theorem algebraic : Cert.algebraic_KernelIdeal_ReferenceIdeal := by
  intro m ρ m' ρ' _ hagree
  refine ⟨_, Cert.KernelIdeal.Canvas.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v17_eq _ _ _).trans (Cert.Pillar.reference_result _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
